-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x16 : Shape := ⟨2, ![4096, 16]⟩
abbrev S16x128 : Shape := ⟨2, ![16, 128]⟩
abbrev S4096x1 : Shape := ⟨2, ![4096, 1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x128 : S_.BroadcastsInDim S16x128 (![] : Fin 0 → Fin S16x128.rank)
  reducesTo_S16x128_S_d0_1 : S16x128.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part1 {F : FTy → Type} [FloatOps F] (main_arg4 : FVec F S16x128 .f32) (main_arg5 : FVec F S4096x1 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x128 .f32 := Host.absf main_arg4
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S4096x1 .f32 := Host.absf main_arg5
  let main_cst_8 : FVec F S_ .f32 := constant S_ .f32 0x7F800000#32
  let main_v25 : FVec F S4096x1 .f32 := broadcastInDim S4096x1 ![] bcast_S_S4096x1 main_cst_8
  let main_v26 : IVec S4096x1 1 := cmpf .olt main_v24 main_v25
  let main_c_9 : IVec S_ 1 := constantI S_ 1 1#1
  let main_v27 : IVec S_ 1 := (fun x v => Host.reduce IntOp.andi x v reducesTo_S4096x1_S_d0_1 h_S_) main_v26 main_c_9
  let main_v28 : IVec S_ 1 := andi main_v23 main_v27
  main_v28

def fn {F : FTy → Type} [FloatOps F] (main_arg0 : FVec F S4096x128 .f32) (main_arg1 : FVec F S4096x128 .f32) (main_arg2 : FVec F S4096x16 .f32) (main_arg3 : FVec F S4096x16 .f32) (main_arg4 : FVec F S16x128 .f32) (main_arg5 : FVec F S4096x1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_v13 main_v16
-- ==== Kernel.lean ====
abbrev S4096x128 : Shape := ⟨2, ![4096, 128]⟩
abbrev S4096x16 : Shape := ⟨2, ![4096, 16]⟩
abbrev S16x128 : Shape := ⟨2, ![16, 128]⟩
abbrev S4096x1 : Shape := ⟨2, ![4096, 1]⟩
abbrev S_ : Shape := ⟨0, ![]⟩
abbrev S4096 : Shape := ⟨1, ![4096]⟩
abbrev S1x4096 : Shape := ⟨2, ![1, 4096]⟩
abbrev S1 : Shape := ⟨1, ![1]⟩
abbrev S4096x4096 : Shape := ⟨2, ![4096, 4096]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 59
  | .vmem => 14
  | .smem => 1
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x16, .f32⟩
  | .hbm, ⟨3, _⟩ => ⟨S4096x16, .f32⟩
  | .hbm, ⟨4, _⟩ => ⟨S16x128, .f32⟩
  | .hbm, ⟨5, _⟩ => ⟨S4096x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S4096x128, .f32⟩
  | .hbm, ⟨15, _⟩ => ⟨S_, .f32⟩
  | .hbm, ⟨16, _⟩ => ⟨S_, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S_, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x128, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S1x4096, .f32⟩
  | .hbm, ⟨37, _⟩ => ⟨S4096x128, .bf16⟩
  | .hbm, ⟨38, _⟩ => ⟨S4096x128, .bf16⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S1x4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .i1⟩
  | .hbm, ⟨57, _⟩ => ⟨S_, .i32⟩
  | .hbm, ⟨58, _⟩ => ⟨S4096x4096, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .smem, ⟨0, _⟩ => ⟨S1, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_v2 : Ref sig .tc := ⟨.hbm, 18, rfl⟩
abbrev main_v3 : Ref sig .tc := ⟨.hbm, 19, rfl⟩
abbrev main_cst_2 : Ref sig .tc := ⟨.hbm, 20, rfl⟩
abbrev main_call2_v0 : Ref sig .tc := ⟨.hbm, 21, rfl⟩
abbrev main_call2_v1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_5 : Ref sig .tc := ⟨.hbm, 39, rfl⟩
abbrev main_cst_6 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v18 : Ref sig .tc := ⟨.hbm, 46, rfl⟩
abbrev main_cst_7 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_8 : Ref sig .tc := ⟨.hbm, 51, rfl⟩
abbrev main_v22 : Ref sig .tc := ⟨.hbm, 52, rfl⟩
abbrev main_cst_9 : Ref sig .tc := ⟨.hbm, 53, rfl⟩
abbrev main_v23 : Ref sig .tc := ⟨.hbm, 54, rfl⟩
abbrev main_cst_10 : Ref sig .tc := ⟨.hbm, 55, rfl⟩
abbrev main_v24 : Ref sig .tc := ⟨.hbm, 56, rfl⟩
abbrev main_v25 : Ref sig .tc := ⟨.hbm, 57, rfl⟩
abbrev main_v27 : Ref sig .tc := ⟨.hbm, 58, rfl⟩
abbrev main_v26 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v26.idx], fun | 0 => main_v26.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S16x128 : S_.BroadcastsInDim S16x128 (![] : Fin 0 → Fin S16x128.rank)
  bcast_S_S4096x128 : S_.BroadcastsInDim S4096x128 (![] : Fin 0 → Fin S4096x128.rank)
  reducesTo_S4096x128_S4096_d1 : S4096x128.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bitsLt_bf16_f32 : FTy.bits .bf16 < FTy.bits .f32
  bcast_S_S4096x1 : S_.BroadcastsInDim S4096x1 (![] : Fin 0 → Fin S4096x1.rank)
  reducesTo_S4096x1_S_d0_1 : S4096x1.ReducesTo [0, 1] S_
  natLt_1_32 : 1 < 32
  shapeCasts_S_S1 : S_.ShapeCasts S1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1_S1_0 : ∀ a, (![0] : Fin 1 → Nat) a + S1.size a ≤ S1.size a
  numel1_S1 : S1.numel = 1
  inb_S1024x1024_S1024x1024_0_0 : ∀ a, (![0, 0] : Fin 2 → Nat) a + S1024x1024.size a ≤ S1024x1024.size a
  h_S1024x1024 : 0 < S1024x1024.numel
  dot_S4096x16_S16x128_S4096x128_1_0_0_1_n_n_wf : DotDims.WF S4096x16 S16x128 S4096x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .bf16 = 32 ∨ (Rect.block (s := S4096x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .bf16 = 32 ∨ (Rect.block (s := S4096x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x4096.size a
  hwx0_6 : ∀ i : grid0.Coords, EltTy.bits .f32 = 32 ∨ (Rect.block (s := S4096x4096) S1024x1024.size (cc0_transform_6 i) (hinb0_6 i)).WholeWords (EltTy.packing .f32)

variable [Facts₀]

def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev spec0_0 : Pipeline.WinSpec sig grid0.rank :=
  Pipeline.WinSpec.ofSpec (Memref.whole main_v16) S1024x128.size reads0_0 false false 2 stage0_0 sem0_0 nbuf0_0 hstage0_0

abbrev spec0_1 : Pipeline.WinSpec sig grid0.rank :=
  Pipeline.WinSpec.ofSpec (Memref.whole main_v17) S1024x128.size reads0_1 false false 2 stage0_1 sem0_1 nbuf0_1 hstage0_1

abbrev spec0_2 : Pipeline.WinSpec sig grid0.rank :=
  Pipeline.WinSpec.ofSpec (Memref.whole main_v11) S1024x1.size reads0_2 false false 2 stage0_2 sem0_2 nbuf0_2 hstage0_2

abbrev spec0_3 : Pipeline.WinSpec sig grid0.rank :=
  Pipeline.WinSpec.ofSpec (Memref.whole main_v15) S1x1024.size reads0_3 false false 2 stage0_3 sem0_3 nbuf0_3 hstage0_3

abbrev spec0_4 : Pipeline.WinSpec sig grid0.rank :=
  Pipeline.WinSpec.ofSpec (Memref.whole main_v20) S1024x1.size reads0_4 false false 2 stage0_4 sem0_4 nbuf0_4 hstage0_4

abbrev spec0_5 : Pipeline.WinSpec sig grid0.rank :=
  Pipeline.WinSpec.ofSpec (Memref.whole main_v21) S1x1024.size reads0_5 false false 2 stage0_5 sem0_5 nbuf0_5 hstage0_5

abbrev spec0_6 : Pipeline.WinSpec sig grid0.rank :=
  Pipeline.WinSpec.ofSpec (Memref.whole main_v27) S1024x1024.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S4096x128 : Shape := ⟨2, ![4096, 128]⟩
abbrev S4096x16 : Shape := ⟨2, ![4096, 16]⟩
abbrev S16x128 : Shape := ⟨2, ![16, 128]⟩
abbrev S4096x1 : Shape := ⟨2, ![4096, 1]⟩
abbrev S_ : Shape := ⟨0, ![]⟩
abbrev S4096 : Shape := ⟨1, ![4096]⟩
abbrev S128x4096 : Shape := ⟨2, ![128, 4096]⟩
abbrev S4096x4096 : Shape := ⟨2, ![4096, 4096]⟩
abbrev S1x4096 : Shape := ⟨2, ![1, 4096]⟩

abbrev nBuf : Space → Nat
  | .hbm => 102
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x16, .f32⟩
  | .hbm, ⟨3, _⟩ => ⟨S4096x16, .f32⟩
  | .hbm, ⟨4, _⟩ => ⟨S16x128, .f32⟩
  | .hbm, ⟨5, _⟩ => ⟨S4096x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S4096x128, .f32⟩
  | .hbm, ⟨15, _⟩ => ⟨S_, .f32⟩
  | .hbm, ⟨16, _⟩ => ⟨S_, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S_, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S_, .f32⟩
  | .hbm, ⟨30, _⟩ => ⟨S4096, .f32⟩
  | .hbm, ⟨31, _⟩ => ⟨S4096x128, .f32⟩
  | .hbm, ⟨32, _⟩ => ⟨S_, .f32⟩
  | .hbm, ⟨33, _⟩ => ⟨S4096, .f32⟩
  | .hbm, ⟨34, _⟩ => ⟨S128x4096, .f32⟩
  | .hbm, ⟨35, _⟩ => ⟨S4096x4096, .f32⟩
  | .hbm, ⟨36, _⟩ => ⟨S4096x1, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S1x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S4096x4096, .f32⟩
  | .hbm, ⟨78, _⟩ => ⟨S4096x4096, .f32⟩
  | .hbm, ⟨79, _⟩ => ⟨S_, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S4096x4096, .f32⟩
  | .hbm, ⟨86, _⟩ => ⟨S4096x4096, .f32⟩
  | .hbm, ⟨87, _⟩ => ⟨S_, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S_, .f32⟩
  | .hbm, ⟨92, _⟩ => ⟨S4096x4096, .f32⟩
  | .hbm, ⟨93, _⟩ => ⟨S4096x4096, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .i1⟩
  | .hbm, ⟨100, _⟩ => ⟨S4096x4096, .f32⟩
  | .hbm, ⟨101, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_v2 : Ref sig .tc := ⟨.hbm, 18, rfl⟩
abbrev main_v3 : Ref sig .tc := ⟨.hbm, 19, rfl⟩
abbrev main_cst_2 : Ref sig .tc := ⟨.hbm, 20, rfl⟩
abbrev main_call2_v0 : Ref sig .tc := ⟨.hbm, 21, rfl⟩
abbrev main_call2_v1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_cst_4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_6 : Ref sig .tc := ⟨.hbm, 45, rfl⟩
abbrev main_call3_v0 : Ref sig .tc := ⟨.hbm, 46, rfl⟩
abbrev main_call3_v1 : Ref sig .tc := ⟨.hbm, 47, rfl⟩
abbrev main_v23 : Ref sig .tc := ⟨.hbm, 48, rfl⟩
abbrev main_cst_7 : Ref sig .tc := ⟨.hbm, 49, rfl⟩
abbrev main_v24 : Ref sig .tc := ⟨.hbm, 50, rfl⟩
abbrev main_v25 : Ref sig .tc := ⟨.hbm, 51, rfl⟩
abbrev main_cst_8 : Ref sig .tc := ⟨.hbm, 52, rfl⟩
abbrev main_v26 : Ref sig .tc := ⟨.hbm, 53, rfl⟩
abbrev main_v27 : Ref sig .tc := ⟨.hbm, 54, rfl⟩
abbrev main_cst_9 : Ref sig .tc := ⟨.hbm, 55, rfl⟩
abbrev main_cst_10 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_11 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_12 : Ref sig .tc := ⟨.hbm, 71, rfl⟩
abbrev main_cst_13 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_v36 : Ref sig .tc := ⟨.hbm, 78, rfl⟩
abbrev main_cst_14 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_15 : Ref sig .tc := ⟨.hbm, 84, rfl⟩
abbrev main_v41 : Ref sig .tc := ⟨.hbm, 85, rfl⟩
abbrev main_v42 : Ref sig .tc := ⟨.hbm, 86, rfl⟩
abbrev main_cst_16 : Ref sig .tc := ⟨.hbm, 87, rfl⟩
abbrev main_v43 : Ref sig .tc := ⟨.hbm, 88, rfl⟩
abbrev main_v44 : Ref sig .tc := ⟨.hbm, 89, rfl⟩
abbrev main_cst_17 : Ref sig .tc := ⟨.hbm, 90, rfl⟩
abbrev main_call6_v0 : Ref sig .tc := ⟨.hbm, 91, rfl⟩
abbrev main_call6_v1 : Ref sig .tc := ⟨.hbm, 92, rfl⟩
abbrev main_v45 : Ref sig .tc := ⟨.hbm, 93, rfl⟩
abbrev main_cst_18 : Ref sig .tc := ⟨.hbm, 94, rfl⟩
abbrev main_v46 : Ref sig .tc := ⟨.hbm, 95, rfl⟩
abbrev main_cst_19 : Ref sig .tc := ⟨.hbm, 96, rfl⟩
abbrev main_v47 : Ref sig .tc := ⟨.hbm, 97, rfl⟩
abbrev main_cst_20 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩

abbrev nD : Nat := 1
abbrev τ : Topo := Topo.v7x

variable {F : FTy → Type} [FloatOps F]

class Facts₀ : Prop where
  bcast_S_S16x128 : S_.BroadcastsInDim S16x128 (![] : Fin 0 → Fin S16x128.rank)
  bcast_S_S4096x128 : S_.BroadcastsInDim S4096x128 (![] : Fin 0 → Fin S4096x128.rank)
  reducesTo_S4096x128_S4096_d1 : S4096x128.ReducesTo [1] S4096
  h_S_ : 0 < S_.numel
  transposes_S4096x128_S128x4096_1_0 : S4096x128.Transposes [1, 0] S128x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S_S4096x1 : S_.BroadcastsInDim S4096x1 (![] : Fin 0 → Fin S4096x1.rank)
  transposes_S4096x1_S1x4096_1_0 : S4096x1.Transposes [1, 0] S1x4096
  reducesTo_S4096x1_S_d0_1 : S4096x1.ReducesTo [0, 1] S_
  dot_S4096x16_S16x128_S4096x128_1_0_0_1_n_n_wf : DotDims.WF S4096x16 S16x128 S4096x128 [1] [0] [0] [1] [] []
  dot_S4096x128_S128x4096_S4096x4096_1_0_0_1_n_n_wf : DotDims.WF S4096x128 S128x4096 S4096x4096 [1] [0] [0] [1] [] []

variable [Facts₀]

def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.BlockPieces.lean ====
/-
  What the kernel body leaves in the output block's staging buffer, at any float instance: the body loads its six
  input blocks whole, reads the one flag word, and stores ONE value over the whole 1024 x 1024 block; so the
  buffer ends holding that value — the body's arithmetic (the generated payload terms) of the six blocks and of
  the bit "the flag word is positive".
-/
import proofs.«149683_j3891240370725_2_alg».proof.Proof.Gen.KernelIdeal.Frame
import Idealize.ShloMosaic.Lib.Pipeline.Value

set_option maxRecDepth 16384

noncomputable section

namespace Cert.KernelIdeal.BlockPieces

open Cert.KernelIdeal Cert.KernelIdeal.Gen Idealize.ShloMosaic Idealize.ShloMosaic.TcCoe Idealize.ShloMosaic.Tactic Idealize.SL.Sem

variable {F : FTy → Type} [FloatOps F]

/-- The zero offsets of a rank-2 rectangle, however spelt. -/
theorem zero_offsets : (![0, 0] : Fin 2 → Nat) = fun _ => 0 := by
  funext a; match a with | ⟨0, _⟩ => rfl | ⟨1, _⟩ => rfl

/-- The one store covers the block, and every load reads a whole input block: the output buffer holds the
    body's value of the blocks and of the flag bit. -/
theorem out_eq (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1024 .f32) (harg8 : arg8.IsWhole) (arg9 : Memref sig .tc .vmem S1024x1024 .f32) (harg9 : arg9.IsWhole)
    (x0 : Vec F S1024x128 .bf16) (x1 : Vec F S1024x128 .bf16) (x2 : Vec F S1024x1 .f32) (x3 : Vec F S1x1024 .f32) (x4 : Vec F S1024x1 .f32) (x5 : Vec F S1x1024 .f32) (xt0 : TbBuf0 (F := F) c tbM0_0) :
    out0_A_6 c i arg3 harg3 arg4 harg4 arg5 harg5 arg6 harg6 arg7 harg7 arg8 harg8 arg9 harg9 x0 x1 x2 x3 x4 x5 xt0
      = k0_pay1 (k0_pay2 x0 x1 x2 x3) (kernelRun0_A.sl.v35 c xt0) (k0_pay3 x0 x1 x2 x3 x4 x5) := by
  unfold out0_A_6
  rw [View.read_writes_eq_canon _ _ _ (cover0_A_6 c i arg3 harg3 arg4 harg4 arg5 harg5 arg6 harg6 arg7 harg7 arg8 harg8 arg9 harg9 x0 x1 x2 x3 x4 x5 xt0)]
  unfold kernelRun0_A
  dsimp only
  unfold kernelRun0_A.sl.r_1 kernelRun0_A.sl.r_2
  rw [View.canon_unit_zero (S := S1024x1024) zero_offsets]
  simp only [View.readAt_eq_ld, Memref.IsWhole.read_unread, View.ld_unit_zero (S := S1024x128) zero_offsets,
    View.ld_unit_zero (S := S1024x1) zero_offsets, View.ld_unit_zero (S := S1x1024) zero_offsets]

end Cert.KernelIdeal.BlockPieces

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.Spec.lean ====
/-
  The result both programs compute, as ONE function of six intermediate arrays, entry by entry on the extended reals.
  Given the scaled rows a (of x) and b (of y), both 4096 x 128; their row sums of squares s and t (length 4096); the
  clipped cutoff column γ (4096 x 1); and one bit f:
    res (i, j)   = 1 / (1 + max ε ((s i + t j) - 2 · Σ_k a (i, k) · b (j, k)))          — the Cauchy kernel of the
                                                                                           clamped squared distance
    gate (i, j)  = logistic (min 1 (max (-1) (res (i, j) - (γ i · ½ + γ j · ½))))
    G (i, j)     = res · gate if f is set, else res.
  The float literals stay the words the programs spell (ε = 0x358637BD, 2 = 0x40000000, 1 = 0x3F800000,
  -1 = 0xBF800000, ½ = 0x3F000000): the same word on both sides is never evaluated.
-/
import Idealize.ShloMosaic.PureOps.Ideal
import Idealize.ShloMosaic.Lib.ValueIdx

noncomputable section

namespace Cert.CauchySpec

open Idealize.ShloMosaic Idealize.ShloMosaic.ValueIdx

/-- The literal shapes. -/
abbrev Rows : Shape := ⟨2, ![4096, 128]⟩
abbrev Len : Shape := ⟨1, ![4096]⟩
abbrev Col : Shape := ⟨2, ![4096, 1]⟩
abbrev Sq : Shape := ⟨2, ![4096, 4096]⟩

/-- The Cauchy kernel of the clamped squared distance between scaled row i of x and scaled row j of y. -/
def res (a b : Rows.Idx → EReal) (s t : Len.Idx → EReal) (i j : Fin 4096) : EReal :=
  Ideal.div (Ideal.ofBits .f32 0x3F800000#32)
    (Ideal.ofBits .f32 0x3F800000#32 + max (Ideal.ofBits .f32 0x358637BD#32)
      ((s (ix1 i) + t (ix1 j)) - Ideal.ofBits .f32 0x40000000#32 * ∑ k : Fin 128, a (ix2 i k) * b (ix2 j k)))

/-- The argument of the gate: the kernel value less the mean of the two clipped cutoffs, clamped into [-1, 1]. -/
def gateArg (a b : Rows.Idx → EReal) (s t : Len.Idx → EReal) (γ : Col.Idx → EReal) (i j : Fin 4096) : EReal :=
  min (Ideal.ofBits .f32 0x3F800000#32) (max (Ideal.ofBits .f32 0xBF800000#32)
    (res a b s t i j - (γ (ix2 i (0 : Fin 1)) * Ideal.ofBits .f32 0x3F000000#32 + γ (ix2 j (0 : Fin 1)) * Ideal.ofBits .f32 0x3F000000#32)))

/-- The result array. -/
def G (a b : Rows.Idx → EReal) (s t : Len.Idx → EReal) (γ : Col.Idx → EReal) (f : BitVec 1) : Sq.Idx → EReal := fun idx =>
  Scalar.select f (res a b s t (idx 0) (idx 1) * Ideal.logistic (gateArg a b s t γ (idx 0) (idx 1))) (res a b s t (idx 0) (idx 1))

theorem G_apply (a b : Rows.Idx → EReal) (s t : Len.Idx → EReal) (γ : Col.Idx → EReal) (f : BitVec 1) (i j : Fin 4096) :
    G a b s t γ f (ix2 i j) = Scalar.select f (res a b s t i j * Ideal.logistic (gateArg a b s t γ i j)) (res a b s t i j) := rfl

end Cert.CauchySpec

end
-- ==== Proof.BlockValue.lean ====
/-
  The kernel body's arithmetic read at one entry (p, q) of a 1024 x 1024 output block, on the extended reals.
  With a the block of scaled x rows, b the block of scaled y rows, s and t the row sums of squares (a column and
  a row), u and v the halved cutoffs (a column and a row):
    res (p, q) = 1 / (1 + max ε ((s p + t q) - 2 · Σ_k a (p, k) · b (q, k)))
    gated (p, q) = res · logistic (min 1 (max (-1) (res - (u p + v q))))
  and the stored entry is gated or res as the flag word is positive or not. The product of the two blocks contracts
  the second axis of both (rows against rows), accumulated into zero, so it is the plain sum over k.
-/
import proofs.«149683_j3891240370725_2_alg».proof.Proof.Gen.KernelIdeal.Skeleton
import proofs.«149683_j3891240370725_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws
import proofs.«149683_j3891240370725_2_alg».proof.Proof.Spec

noncomputable section

namespace Cert.KernelIdeal.BlockValue

open Cert.KernelIdeal Cert.KernelIdeal.Gen Idealize.ShloMosaic Idealize.ShloMosaic.ValueIdx

/-! ## Rows against rows: the operand indices of the block product -/

/-- The left operand's row is the output's row, -/
theorem lhs_row (i : S1024x1024.Idx) (κ : dot_S1024x128_S1024x128_S1024x1024_1_1_0_0_n_n.contr.Idx) : (dot_S1024x128_S1024x128_S1024x1024_1_1_0_0_n_n.lhsIdx i κ 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
/-- its column the contraction index; -/
theorem lhs_col (i : S1024x1024.Idx) (κ : dot_S1024x128_S1024x128_S1024x1024_1_1_0_0_n_n.contr.Idx) : (dot_S1024x128_S1024x128_S1024x1024_1_1_0_0_n_n.lhsIdx i κ 1).val = (κ ⟨0, by decide⟩).val :=
  dot_S1024x128_S1024x128_S1024x1024_1_1_0_0_n_n.lhsIdx_val_of_single rfl i κ
/-- the right operand's row is the output's COLUMN, -/
theorem rhs_row (i : S1024x1024.Idx) (κ : dot_S1024x128_S1024x128_S1024x1024_1_1_0_0_n_n.contr.Idx) : (dot_S1024x128_S1024x128_S1024x1024_1_1_0_0_n_n.rhsIdx i κ 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
/-- its column the contraction index. -/
theorem rhs_col (i : S1024x1024.Idx) (κ : dot_S1024x128_S1024x128_S1024x1024_1_1_0_0_n_n.contr.Idx) : (dot_S1024x128_S1024x128_S1024x1024_1_1_0_0_n_n.rhsIdx i κ 1).val = (κ ⟨0, by decide⟩).val :=
  dot_S1024x128_S1024x128_S1024x1024_1_1_0_0_n_n.rhsIdx_val_of_single rfl i κ

/-- The product of a block of rows with a block of rows, both contracted along their second axis, into a zero
    accumulator: entry (p, q) is the sum over k of a (p, k) · b (q, k). -/
theorem rows_dot_apply (a b : FVec Ideal S1024x128 .bf16) (p q : Fin 1024) :
    matmul dot_S1024x128_S1024x128_S1024x1024_1_1_0_0_n_n none a b (constant S1024x1024 .f32 0x00000000#32) (ix2 p q)
      = ∑ k : Fin 128, a (ix2 p k) * b (ix2 q k) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k :=
    funext fun ax => Fin.ext (by
      match ax with
      | ⟨0, _⟩ => exact lhs_row _ _
      | ⟨1, _⟩ => exact (lhs_col _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k :=
    funext fun ax => Fin.ext (by
      match ax with
      | ⟨0, _⟩ => exact rhs_row _ _
      | ⟨1, _⟩ => exact (rhs_col _ _).trans hk)
  rw [el, er]

/-! ## The body's values at an entry -/

/-- The logistic of a vector, read at an index. -/
theorem logistic_apply {s : Shape} {φ : FTy} (a : FVec Ideal s φ) (i : s.Idx) : logistic a i = Ideal.logistic (a i) := rfl

/-- The kernel value at entry (p, q): one over one plus the clamped squared distance, the distance by the expansion
    s p + t q - 2 · (a · b). -/
theorem pay2_apply (x0 x1 : Vec Ideal S1024x128 .bf16) (x2 : Vec Ideal S1024x1 .f32) (x3 : Vec Ideal S1x1024 .f32) (p q : Fin 1024) :
    k0_pay2 (F := Ideal) x0 x1 x2 x3 (ix2 p q)
      = Ideal.div (Ideal.ofBits .f32 0x3F800000#32) (Ideal.ofBits .f32 0x3F800000#32 + max (Ideal.ofBits .f32 0x358637BD#32)
          ((x2 (ix2 p (0 : Fin 1)) + x3 (ix2 (0 : Fin 1) q)) - Ideal.ofBits .f32 0x40000000#32 * ∑ k : Fin 128, x0 (ix2 p k) * x1 (ix2 q k))) := by
  unfold k0_pay2
  simp only [divf_apply, addf_apply, maximumf_apply, subf_apply, mulf_apply, broadcast_apply, shapeCast_self,
    Cert.ColumnLayout.broadcastTo_a1_ab_apply, broadcastTo_1b_ab_apply, rows_dot_apply]
  rfl

/-- The gated value at entry (p, q): the kernel value times the logistic of (the kernel value less the two halved
    cutoffs) clamped into [-1, 1]. -/
theorem pay3_apply (x0 x1 : Vec Ideal S1024x128 .bf16) (x2 : Vec Ideal S1024x1 .f32) (x3 : Vec Ideal S1x1024 .f32)
    (x4 : Vec Ideal S1024x1 .f32) (x5 : Vec Ideal S1x1024 .f32) (p q : Fin 1024) :
    k0_pay3 (F := Ideal) x0 x1 x2 x3 x4 x5 (ix2 p q)
      = k0_pay2 (F := Ideal) x0 x1 x2 x3 (ix2 p q) * Ideal.logistic (min (Ideal.ofBits .f32 0x3F800000#32) (max (Ideal.ofBits .f32 0xBF800000#32)
          (k0_pay2 (F := Ideal) x0 x1 x2 x3 (ix2 p q) - (x4 (ix2 p (0 : Fin 1)) + x5 (ix2 (0 : Fin 1) q))))) := by
  unfold k0_pay3
  simp only [mulf_apply, logistic_apply, minimumf_apply, maximumf_apply, subf_apply, addf_apply, broadcast_apply, shapeCast_self,
    Cert.ColumnLayout.broadcastTo_a1_ab_apply, broadcastTo_1b_ab_apply]
  rfl

/-- The stored entry: the gated value when the flag bit is set, the kernel value otherwise. -/
theorem pay1_apply (r g : FVec Ideal S1024x1024 .f32) (f : BitVec 1) (i : S1024x1024.Idx) :
    k0_pay1 (F := Ideal) r f g i = Scalar.select f (g i) (r i) := by
  unfold k0_pay1 Scalar.select
  split <;> rfl

/-- AN ENTRY OF THE BLOCK IS AN ENTRY OF THE RESULT ARRAY: if the six blocks are, where entry (p, q) reads them, row i
    of a and row j of b, s i and t j, and γ i · ½ and γ j · ½, the stored entry (p, q) is G at (i, j). -/
theorem block_eq_spec (x0 x1 : Vec Ideal S1024x128 .bf16) (x2 : Vec Ideal S1024x1 .f32) (x3 : Vec Ideal S1x1024 .f32)
    (x4 : Vec Ideal S1024x1 .f32) (x5 : Vec Ideal S1x1024 .f32) (f : BitVec 1)
    (a b : Cert.CauchySpec.Rows.Idx → EReal) (s t : Cert.CauchySpec.Len.Idx → EReal) (γ : Cert.CauchySpec.Col.Idx → EReal)
    (i j : Fin 4096) (p q : Fin 1024)
    (h0 : ∀ k : Fin 128, x0 (ix2 p k) = a (ix2 i k)) (h1 : ∀ k : Fin 128, x1 (ix2 q k) = b (ix2 j k))
    (h2 : x2 (ix2 p (0 : Fin 1)) = s (ix1 i)) (h3 : x3 (ix2 (0 : Fin 1) q) = t (ix1 j))
    (h4 : x4 (ix2 p (0 : Fin 1)) = γ (ix2 i (0 : Fin 1)) * Ideal.ofBits .f32 0x3F000000#32)
    (h5 : x5 (ix2 (0 : Fin 1) q) = γ (ix2 j (0 : Fin 1)) * Ideal.ofBits .f32 0x3F000000#32) :
    k0_pay1 (F := Ideal) (k0_pay2 x0 x1 x2 x3) f (k0_pay3 x0 x1 x2 x3 x4 x5) (ix2 p q) = Cert.CauchySpec.G a b s t γ f (ix2 i j) := by
  rw [Cert.CauchySpec.G_apply, pay1_apply, pay3_apply, pay2_apply, h2, h3, h4, h5]
  simp only [h0, h1]
  rfl

end Cert.KernelIdeal.BlockValue

end
-- ==== Proof.Laws.lean ====
/-
  Laws of the extended reals that join the two programs' results: the half of a sum of two nonnegative
  numbers is the sum of their halves; a logistic value of an argument in [-1, 1] is at least 1/(1+e), hence
  above any threshold below a quarter; one times a number is that number.
-/
import Idealize.ShloMosaic.PureOps.Ideal
import Idealize.ShloMosaic.PureOps.Ideal.Laws
import Mathlib.Analysis.Complex.ExponentialBounds

noncomputable section

namespace Cert.CauchyLaws

open Idealize.ShloMosaic

/-! ### The float constants, as the extended reals their patterns denote

Each pattern is a normal binary32 number `(2^23 + T) · 2^(E - 150)`, or the zero pattern. -/

/-- `1.0` denotes `1`. -/
theorem one_val : Ideal.ofBits .f32 0x3F800000#32 = 1 := by
  simp [Ideal.ofBits, Ideal.ieee, -EReal.coe_mul]; norm_num

/-- `-1.0` denotes `-1`. -/
theorem negOne_val : Ideal.ofBits .f32 0xBF800000#32 = -1 := by
  simp [Ideal.ofBits, Ideal.ieee, -EReal.coe_mul]; norm_num

/-- `+0.0` denotes `0`. -/
theorem zero_val : Ideal.ofBits .f32 0x00000000#32 = 0 := by
  simp [Ideal.ofBits, Ideal.ieee]

/-- `0.5` denotes the real `1/2`. -/
theorem half_val : Ideal.ofBits .f32 0x3F000000#32 = (((1 : ℝ) / 2 : ℝ) : EReal) := by
  simp [Ideal.ofBits, Ideal.ieee, -EReal.coe_mul]; norm_num

/-- The threshold near `1e-6` denotes the dyadic `8796093 / 2^43`. -/
theorem tiny_val : Ideal.ofBits .f32 0x358637BD#32 = (((8796093 : ℝ) / 2 ^ 43 : ℝ) : EReal) := by
  simp [Ideal.ofBits, Ideal.ieee, -EReal.coe_mul]; norm_num

/-- The lower clip bound near `1e-4` denotes the dyadic `13743895 / 2^37`. -/
theorem lo_val : Ideal.ofBits .f32 0x38D1B717#32 = (((13743895 : ℝ) / 2 ^ 37 : ℝ) : EReal) := by
  simp [Ideal.ofBits, Ideal.ieee, -EReal.coe_mul]; norm_num

/-- The upper clip bound near `0.9999` denotes the dyadic `16775538 / 2^24`. -/
theorem hi_val : Ideal.ofBits .f32 0x3F7FF972#32 = (((16775538 : ℝ) / 2 ^ 24 : ℝ) : EReal) := by
  simp [Ideal.ofBits, Ideal.ieee, -EReal.coe_mul]; norm_num

/-- The lower clip bound is nonnegative. -/
theorem lo_nonneg : (0 : EReal) ≤ Ideal.ofBits .f32 0x38D1B717#32 := by
  rw [lo_val]; exact_mod_cast (by positivity : (0 : ℝ) ≤ 13743895 / 2 ^ 37)

/-- The upper clip bound is nonnegative. -/
theorem hi_nonneg : (0 : EReal) ≤ Ideal.ofBits .f32 0x3F7FF972#32 := by
  rw [hi_val]; exact_mod_cast (by positivity : (0 : ℝ) ≤ 16775538 / 2 ^ 24)

/-- The clip interval is not empty. -/
theorem lo_le_hi : Ideal.ofBits .f32 0x38D1B717#32 ≤ Ideal.ofBits .f32 0x3F7FF972#32 := by
  rw [lo_val, hi_val]; exact_mod_cast (by norm_num : (13743895 : ℝ) / 2 ^ 37 ≤ 16775538 / 2 ^ 24)

/-- The threshold is positive. -/
theorem tiny_pos : (0 : EReal) < Ideal.ofBits .f32 0x358637BD#32 := by
  rw [tiny_val]; exact_mod_cast (by positivity : (0 : ℝ) < 8796093 / 2 ^ 43)

/-- The threshold is below a quarter. -/
theorem tiny_le_quarter : Ideal.ofBits .f32 0x358637BD#32 ≤ (((1 : ℝ) / 4 : ℝ) : EReal) := by
  rw [tiny_val]; exact_mod_cast (by norm_num : (8796093 : ℝ) / 2 ^ 43 ≤ 1 / 4)

/-! ### A clipped value is nonnegative -/

/-- A value clipped into `[LO, HI]` is nonnegative: both bounds are. -/
theorem clip_nonneg (x : EReal) :
    0 ≤ min (Ideal.ofBits .f32 0x3F7FF972#32) (max (Ideal.ofBits .f32 0x38D1B717#32) x) :=
  le_min hi_nonneg (le_max_of_le_left lo_nonneg)

/-- The same with `max`'s arguments in the other order. -/
theorem clip_nonneg_maxComm (x : EReal) :
    0 ≤ min (Ideal.ofBits .f32 0x3F7FF972#32) (max x (Ideal.ofBits .f32 0x38D1B717#32)) :=
  le_min hi_nonneg (le_max_of_le_right lo_nonneg)

/-- The same with `min`'s arguments in the other order. -/
theorem clip_nonneg_minComm (x : EReal) :
    0 ≤ min (max (Ideal.ofBits .f32 0x38D1B717#32) x) (Ideal.ofBits .f32 0x3F7FF972#32) :=
  le_min (le_max_of_le_left lo_nonneg) hi_nonneg

/-- The same with both in the other order. -/
theorem clip_nonneg_comm (x : EReal) :
    0 ≤ min (max x (Ideal.ofBits .f32 0x38D1B717#32)) (Ideal.ofBits .f32 0x3F7FF972#32) :=
  le_min (le_max_of_le_right lo_nonneg) hi_nonneg

/-! ### Multiplication distributes over a sum of nonnegative numbers -/

/-- `(a + b) · h = a · h + b · h` for nonnegative `a`, `b` and any `h`: no `⊤ + ⊥` can arise on either
    side, the two products having one sign. -/
theorem half_sum (a b h : EReal) (ha : 0 ≤ a) (hb : 0 ≤ b) : (a + b) * h = a * h + b * h :=
  EReal.right_distrib_of_nonneg ha hb

/-- The mirror image: `h · (a + b) = h · a + h · b`. -/
theorem half_sum_left (a b h : EReal) (ha : 0 ≤ a) (hb : 0 ≤ b) : h * (a + b) = h * a + h * b :=
  EReal.left_distrib_of_nonneg ha hb

/-! ### The logistic function on [-1, 1] stays above a quarter -/

/-- On the reals: for `-1 ≤ r` the logistic value `1 / (1 + e^(-r))` exceeds `1/4`, since
    `e^(-r) ≤ e < 3`. -/
theorem quarter_lt_logistic_real (r : ℝ) (h : -1 ≤ r) : (1 : ℝ) / 4 < (1 + Real.exp (-r))⁻¹ := by
  have he : Real.exp (-r) ≤ Real.exp 1 := Real.exp_le_exp.mpr (by linarith)
  have h3 : Real.exp 1 < 3 := Real.exp_one_lt_three
  have hpos : (0 : ℝ) < 1 + Real.exp (-r) := by positivity
  rw [lt_inv_comm₀ (by norm_num) hpos]
  linarith

/-- A number between `-1` and `1` is a real. -/
theorem exists_real_of_mem (p : EReal) (h1 : (-1 : EReal) ≤ p) (h2 : p ≤ 1) :
    ∃ r : ℝ, p = (r : EReal) ∧ -1 ≤ r ∧ r ≤ 1 := by
  have hbot : p ≠ ⊥ := by
    rintro rfl
    exact absurd h1 (by simp [← EReal.coe_one, ← EReal.coe_neg])
  have htop : p ≠ ⊤ := by
    rintro rfl
    exact absurd h2 (by simp [← EReal.coe_one])
  lift p to ℝ using ⟨htop, hbot⟩
  refine ⟨p, rfl, ?_, ?_⟩
  · rw [← EReal.coe_one, ← EReal.coe_neg] at h1
    exact EReal.coe_le_coe_iff.mp h1
  · rw [← EReal.coe_one] at h2
    exact EReal.coe_le_coe_iff.mp h2

/-- The threshold is at most the logistic value of any `p` in `[-1, 1]`. -/
theorem tiny_le_logistic (p : EReal) (h1 : (-1 : EReal) ≤ p) (h2 : p ≤ 1) :
    Ideal.ofBits .f32 0x358637BD#32 ≤ Ideal.logistic p := by
  obtain ⟨r, rfl, hr1, _⟩ := exists_real_of_mem p h1 h2
  rw [Ideal.logistic_coe]
  refine le_trans tiny_le_quarter ?_
  exact_mod_cast (quarter_lt_logistic_real r hr1).le

/-- The main law. For `p` between `-1.0` and `1.0`: `1 · p = p`, the quotient `1 / (1 + e^(-p))` is the
    logistic value of `p` by definition, and it is above the threshold, so the clamp from below by the
    threshold returns it unchanged. -/
theorem sigmoid_floor (p : EReal) (h1 : Ideal.ofBits .f32 0xBF800000#32 ≤ p)
    (h2 : p ≤ Ideal.ofBits .f32 0x3F800000#32) :
    max (Ideal.ofBits .f32 0x358637BD#32)
        (Ideal.div (Ideal.ofBits .f32 0x3F800000#32)
          (Ideal.ofBits .f32 0x3F800000#32 + Ideal.exp (-(Ideal.ofBits .f32 0x3F800000#32 * p))))
      = Ideal.logistic p := by
  rw [negOne_val] at h1
  rw [one_val] at h2 ⊢
  rw [one_mul]
  exact max_eq_right (tiny_le_logistic p h1 h2)

/-- The same with `max`'s arguments in the other order. -/
theorem sigmoid_floor_comm (p : EReal) (h1 : Ideal.ofBits .f32 0xBF800000#32 ≤ p)
    (h2 : p ≤ Ideal.ofBits .f32 0x3F800000#32) :
    max (Ideal.div (Ideal.ofBits .f32 0x3F800000#32)
          (Ideal.ofBits .f32 0x3F800000#32 + Ideal.exp (-(Ideal.ofBits .f32 0x3F800000#32 * p))))
        (Ideal.ofBits .f32 0x358637BD#32)
      = Ideal.logistic p := by
  rw [max_comm]; exact sigmoid_floor p h1 h2

/-- A value clipped into `[-1.0, 1.0]` is at least `-1.0` (the interval is not empty). -/
theorem negOne_le_clip (x : EReal) :
    Ideal.ofBits .f32 0xBF800000#32
      ≤ min (Ideal.ofBits .f32 0x3F800000#32) (max (Ideal.ofBits .f32 0xBF800000#32) x) := by
  refine le_min ?_ (le_max_left _ _)
  rw [negOne_val, one_val, ← EReal.coe_one, ← EReal.coe_neg]
  exact EReal.coe_le_coe_iff.mpr (by norm_num)

/-- A value clipped into `[-1.0, 1.0]` is at most `1.0`. -/
theorem clip_le_one (x : EReal) :
    min (Ideal.ofBits .f32 0x3F800000#32) (max (Ideal.ofBits .f32 0xBF800000#32) x)
      ≤ Ideal.ofBits .f32 0x3F800000#32 :=
  min_le_left _ _

/-- The main law at a clipped argument `p = min 1.0 (max -1.0 x)`, for every `x`. -/
theorem sigmoid_floor_clip (x : EReal) :
    max (Ideal.ofBits .f32 0x358637BD#32)
        (Ideal.div (Ideal.ofBits .f32 0x3F800000#32)
          (Ideal.ofBits .f32 0x3F800000#32 + Ideal.exp (-(Ideal.ofBits .f32 0x3F800000#32 *
            min (Ideal.ofBits .f32 0x3F800000#32) (max (Ideal.ofBits .f32 0xBF800000#32) x)))))
      = Ideal.logistic (min (Ideal.ofBits .f32 0x3F800000#32) (max (Ideal.ofBits .f32 0xBF800000#32) x)) :=
  sigmoid_floor _ (negOne_le_clip x) (clip_le_one x)

/-- The clip written with `max`'s arguments in the other order is the same number. -/
theorem clip_maxComm (x : EReal) :
    min (Ideal.ofBits .f32 0x3F800000#32) (max x (Ideal.ofBits .f32 0xBF800000#32))
      = min (Ideal.ofBits .f32 0x3F800000#32) (max (Ideal.ofBits .f32 0xBF800000#32) x) := by
  rw [max_comm]

/-- The clip written with `min`'s arguments in the other order is the same number. -/
theorem clip_minComm (x : EReal) :
    min (max (Ideal.ofBits .f32 0xBF800000#32) x) (Ideal.ofBits .f32 0x3F800000#32)
      = min (Ideal.ofBits .f32 0x3F800000#32) (max (Ideal.ofBits .f32 0xBF800000#32) x) := by
  rw [min_comm]

/-- The clip written with both in the other order is the same number. -/
theorem clip_comm (x : EReal) :
    min (max x (Ideal.ofBits .f32 0xBF800000#32)) (Ideal.ofBits .f32 0x3F800000#32)
      = min (Ideal.ofBits .f32 0x3F800000#32) (max (Ideal.ofBits .f32 0xBF800000#32) x) := by
  rw [min_comm, max_comm]

/-! ### A one-bit flag survives widening and the test against zero -/

/-- Zero-extending a bit to a 32-bit word and asking whether the word is greater than zero (signed)
    gives the bit back: the word is `0` or `1`. -/
theorem flag_roundtrip (b : BitVec 1) : Scalar.cmpi .sgt (b.setWidth 32) (0#32) = b := by
  revert b; decide

/-- The same through the scalar zero-extension. -/
theorem flag_roundtrip_extui (b : BitVec 1) : Scalar.cmpi .sgt (Scalar.extui b) (0#32) = b := by
  revert b; decide

end Cert.CauchyLaws

end
-- ==== Proof.HostArrays.lean ====
/-
  The seven arrays the second program prepares before its blocked computation, in terms of the first program's
  intermediate arrays of the same inputs. Both programs compute the scaled rows of x and of y, their row sums of
  squares, the clipped cutoff column and the flag by the same operations on the same inputs, so each prepared array
  is, as a whole array, a rounding, a broadcast, a transposition, a product with a constant or a reshape of one of
  those six; on the extended reals a rounding is the identity and a product of sums does not depend on the precision
  asked of it. The second half reads each prepared array at an index.
-/
import proofs.«149683_j3891240370725_2_alg».proof.Proof.Gen.KernelIdeal.Frame
import proofs.«149683_j3891240370725_2_alg».proof.Proof.Gen.ReferenceIdeal.Read
import proofs.«149683_j3891240370725_2_alg».proof.Proof.Laws
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section
namespace Cert.KernelIdeal.HostArrays
open Cert.KernelIdeal Cert.KernelIdeal.Gen Idealize.ShloMosaic Idealize.ShloMosaic.TcCoe Idealize.ShloMosaic.Tactic Idealize.SL.Sem Idealize.ShloMosaic.StableHlo Idealize.ShloMosaic.ValueIdx

variable (m : (ℓ : Loc nD τ sig) → Buf (Elt Ideal) ℓ)

/-! ### The prepared arrays, as whole arrays -/

set_option maxHeartbeats 40000000 in
/-- The scaled rows of `x`, rounded to bf16 — the identity on the extended reals. -/
theorem arr_rowsX (c : Dev nD) : @Eq (S4096x128.Idx → Ideal .bf16) (V m c main_v16)
    (truncf (F := Ideal) (s := S4096x128) .bf16 (Cert.ReferenceIdeal.Read.val_main_v6 (F := Ideal) (m ((c : Thread nD τ).loc main_arg0)) (m ((c : Thread nD τ).loc main_arg2)) (m ((c : Thread nD τ).loc main_arg4))) bitsLt_bf16_f32) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 40000000 in
/-- The scaled rows of `y`, rounded to bf16 — the identity on the extended reals. -/
theorem arr_rowsY (c : Dev nD) : @Eq (S4096x128.Idx → Ideal .bf16) (V m c main_v17)
    (truncf (F := Ideal) (s := S4096x128) .bf16 (Cert.ReferenceIdeal.Read.val_main_v8 (F := Ideal) (m ((c : Thread nD τ).loc main_arg1)) (m ((c : Thread nD τ).loc main_arg3)) (m ((c : Thread nD τ).loc main_arg4))) bitsLt_bf16_f32) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 40000000 in
/-- The sums of squares of the scaled rows of `x`, as a column. -/
theorem arr_sumX (c : Dev nD) : @Eq (S4096x1.Idx → Ideal .f32) (V m c main_v11)
    (broadcastInDim S4096x1 ![0] bcast_S4096_S4096x1_0 (Cert.ReferenceIdeal.Read.val_main_v10 (F := Ideal) (m ((c : Thread nD τ).loc main_arg0)) (m ((c : Thread nD τ).loc main_arg2)) (m ((c : Thread nD τ).loc main_arg4)))) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 40000000 in
/-- The sums of squares of the scaled rows of `y`, as a column, transposed to a row. -/
theorem arr_sumY (c : Dev nD) : @Eq (S1x4096.Idx → Ideal .f32) (V m c main_v15)
    (transpose S1x4096 [1, 0] (broadcastInDim S4096x1 ![0] bcast_S4096_S4096x1_0 (Cert.ReferenceIdeal.Read.val_main_v12 (F := Ideal) (m ((c : Thread nD τ).loc main_arg1)) (m ((c : Thread nD τ).loc main_arg3)) (m ((c : Thread nD τ).loc main_arg4)))) transposes_S4096x1_S1x4096_1_0) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 40000000 in
/-- Half the clipped cutoff, as a column: the clipped cutoff times a column of halves. -/
theorem arr_halfCol (c : Dev nD) : @Eq (S4096x1.Idx → Ideal .f32) (V m c main_v20)
    ((mulf (F := Ideal) (s := S4096x1) (Cert.ReferenceIdeal.Read.val_main_v28 (F := Ideal) (m ((c : Thread nD τ).loc main_arg5))) (broadcastInDim S4096x1 ![] bcast_S_S4096x1 (constant (F := Ideal) S_ .f32 0x3F000000#32)))) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 40000000 in
/-- Half the clipped cutoff, transposed to a row. -/
theorem arr_halfRow (c : Dev nD) : @Eq (S1x4096.Idx → Ideal .f32) (V m c main_v21)
    (transpose S1x4096 [1, 0] (mulf (F := Ideal) (s := S4096x1) (Cert.ReferenceIdeal.Read.val_main_v28 (F := Ideal) (m ((c : Thread nD τ).loc main_arg5))) (broadcastInDim S4096x1 ![] bcast_S_S4096x1 (constant (F := Ideal) S_ .f32 0x3F000000#32))) transposes_S4096x1_S1x4096_1_0) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 40000000 in
/-- The flag (is the mean cutoff positive?) widened from one bit to a 32-bit word and reshaped to a one-element vector. -/
theorem arr_flag (c : Dev nD) : @Eq (S1.Idx → BitVec 32) (V m c main_v26)
    (shapeCast S1 (extui 32 (Cert.ReferenceIdeal.Read.val_main_v48 (F := Ideal) (m ((c : Thread nD τ).loc main_arg5))) natLt_1_32) shapeCasts_S_S1) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-! ### The layout operations of the prologue, read at an index -/

/-- A length-`4096` vector broadcast to a column reads, at row `i`, its entry `i`. -/
theorem bcastCol_apply {α : Type} (y : S4096.Idx → α) (i : Fin 4096) :
    broadcastInDim S4096x1 ![0] bcast_S4096_S4096x1_0 y (ix2 i (0 : Fin 1)) = y (ix1 i) :=
  broadcastInDim_apply _ bcast_S4096_S4096x1_0 y (ix2 i (0 : Fin 1)) (ix1 i) (fun a => match a with
    | ⟨0, _⟩ => by show i.val = if (4096 : Nat) = 1 then 0 else i.val; rw [if_neg (by decide)])

/-- A column transposed to a row reads, at position `j`, the column's entry `j`. -/
theorem transposeCol_apply {α : Type} (y : S4096x1.Idx → α) (j : Fin 4096) :
    transpose S1x4096 [1, 0] y transposes_S4096x1_S1x4096_1_0 (ix2 (0 : Fin 1) j) = y (ix2 j (0 : Fin 1)) :=
  transpose_apply [1, 0] y transposes_S4096x1_S1x4096_1_0 (ix2 (0 : Fin 1) j) (ix2 j (0 : Fin 1)) (fun b => match b with
    | ⟨0, _⟩ => rfl
    | ⟨1, _⟩ => rfl)

/-- A scalar broadcast to a column reads the scalar everywhere. -/
theorem bcastScalar_apply {α : Type} (y : S_.Idx → α) (q : S4096x1.Idx) :
    broadcastInDim S4096x1 ![] bcast_S_S4096x1 y q = y ValueIdx.ix0 :=
  broadcastInDim_apply _ bcast_S_S4096x1 y q ValueIdx.ix0 (fun a => a.elim0)

/-- A scalar reshaped to a one-element vector reads the scalar at its one position. -/
theorem reshape1_apply {α : Type} (y : S_.Idx → α) :
    shapeCast S1 y shapeCasts_S_S1 (ix1 (0 : Fin 1)) = y ValueIdx.ix0 :=
  shapeCast_apply y shapeCasts_S_S1 (ix1 (0 : Fin 1)) ValueIdx.ix0 (by
    rw [Shape.rowMajor_val_one]; exact Shape.rowMajorPi_zero _ _)

/-! ### The prepared arrays, read at an index -/

/-- Entry `(i, k)` of the first array is entry `(i, k)` of the scaled rows of `x`: rounding is the identity here. -/
theorem rowsX_apply (c : Dev nD) (i : Fin 4096) (k : Fin 128) :
    @Eq EReal ((V m c main_v16 : S4096x128.Idx → Ideal .bf16) (ix2 i k))
      (Cert.ReferenceIdeal.Read.val_main_v6 (F := Ideal) (m ((c : Thread nD τ).loc main_arg0)) (m ((c : Thread nD τ).loc main_arg2)) (m ((c : Thread nD τ).loc main_arg4)) (ix2 i k)) :=
  (congrFun (arr_rowsX m c) (ix2 i k))

/-- Entry `(j, k)` of the second array is entry `(j, k)` of the scaled rows of `y`. -/
theorem rowsY_apply (c : Dev nD) (j : Fin 4096) (k : Fin 128) :
    @Eq EReal ((V m c main_v17 : S4096x128.Idx → Ideal .bf16) (ix2 j k))
      (Cert.ReferenceIdeal.Read.val_main_v8 (F := Ideal) (m ((c : Thread nD τ).loc main_arg1)) (m ((c : Thread nD τ).loc main_arg3)) (m ((c : Thread nD τ).loc main_arg4)) (ix2 j k)) :=
  (congrFun (arr_rowsY m c) (ix2 j k))

/-- Row `i` of the third array is the sum of squares of scaled row `i` of `x`. -/
theorem sumX_apply (c : Dev nD) (i : Fin 4096) :
    @Eq EReal ((V m c main_v11 : S4096x1.Idx → Ideal .f32) (ix2 i (0 : Fin 1)))
      (Cert.ReferenceIdeal.Read.val_main_v10 (F := Ideal) (m ((c : Thread nD τ).loc main_arg0)) (m ((c : Thread nD τ).loc main_arg2)) (m ((c : Thread nD τ).loc main_arg4)) (ix1 i)) :=
  (congrFun (arr_sumX m c) (ix2 i (0 : Fin 1))).trans (bcastCol_apply _ i)

/-- Position `j` of the fourth array is the sum of squares of scaled row `j` of `y`. -/
theorem sumY_apply (c : Dev nD) (j : Fin 4096) :
    @Eq EReal ((V m c main_v15 : S1x4096.Idx → Ideal .f32) (ix2 (0 : Fin 1) j))
      (Cert.ReferenceIdeal.Read.val_main_v12 (F := Ideal) (m ((c : Thread nD τ).loc main_arg1)) (m ((c : Thread nD τ).loc main_arg3)) (m ((c : Thread nD τ).loc main_arg4)) (ix1 j)) :=
  (congrFun (arr_sumY m c) (ix2 (0 : Fin 1) j)).trans ((transposeCol_apply _ j).trans (bcastCol_apply _ j))

/-- Row `i` of the fifth array is half the clipped cutoff of row `i`. -/
theorem halfCol_apply (c : Dev nD) (i : Fin 4096) :
    @Eq EReal ((V m c main_v20 : S4096x1.Idx → Ideal .f32) (ix2 i (0 : Fin 1)))
      (Cert.ReferenceIdeal.Read.val_main_v28 (F := Ideal) (m ((c : Thread nD τ).loc main_arg5)) (ix2 i (0 : Fin 1)) * Ideal.ofBits .f32 0x3F000000#32) :=
  (congrFun (arr_halfCol m c) (ix2 i (0 : Fin 1))).trans (congrArg (Cert.ReferenceIdeal.Read.val_main_v28 (F := Ideal) (m ((c : Thread nD τ).loc main_arg5)) (ix2 i (0 : Fin 1)) * ·) (bcastScalar_apply _ _))

/-- Position `j` of the sixth array is half the clipped cutoff of row `j`. -/
theorem halfRow_apply (c : Dev nD) (j : Fin 4096) :
    @Eq EReal ((V m c main_v21 : S1x4096.Idx → Ideal .f32) (ix2 (0 : Fin 1) j))
      (Cert.ReferenceIdeal.Read.val_main_v28 (F := Ideal) (m ((c : Thread nD τ).loc main_arg5)) (ix2 j (0 : Fin 1)) * Ideal.ofBits .f32 0x3F000000#32) :=
  (congrFun (arr_halfRow m c) (ix2 (0 : Fin 1) j)).trans ((transposeCol_apply _ j).trans (congrArg (Cert.ReferenceIdeal.Read.val_main_v28 (F := Ideal) (m ((c : Thread nD τ).loc main_arg5)) (ix2 j (0 : Fin 1)) * ·) (bcastScalar_apply _ _)))

/-- The one word of the seventh array is the flag bit, zero-extended. -/
theorem flag_word (c : Dev nD) :
    @Eq (BitVec 32) ((V m c main_v26 : S1.Idx → BitVec 32) (ix1 (0 : Fin 1)))
      ((Cert.ReferenceIdeal.Read.val_main_v48 (F := Ideal) (m ((c : Thread nD τ).loc main_arg5)) ValueIdx.ix0).setWidth 32) :=
  (congrFun (arr_flag m c) (ix1 (0 : Fin 1))).trans (reshape1_apply _)

/-- Testing that word against zero (signed greater-than) gives the flag bit back: the word is `0` or `1`. -/
theorem flag_bit (c : Dev nD) :
    Scalar.cmpi .sgt ((V m c main_v26 : S1.Idx → BitVec 32) (ix1 (0 : Fin 1))) 0#32
      = Cert.ReferenceIdeal.Read.val_main_v48 (F := Ideal) (m ((c : Thread nD τ).loc main_arg5)) ValueIdx.ix0 := by
  rw [flag_word m c]; exact Cert.CauchyLaws.flag_roundtrip _

end Cert.KernelIdeal.HostArrays
end
-- ==== Proof.KernelValue.lean ====
/-
  The array the kernel leaves. The output is tiled 4 x 4 in blocks of 1024 x 1024; at the grid point whose output block
  index is (r, s) the body is handed block r of the scaled x rows, of x's row sums and of the halved cutoffs (a column),
  and block s of the scaled y rows, of y's row sums and of the halved cutoffs (a row), and stores one value over the whole
  output block. Entry (p, q) of that value is the result array G at (r·1024 + p, s·1024 + q): each input block, read
  where that entry reads it, is the corresponding entry of its whole array (a block's coordinate is index × size +
  the coordinate inside the block), and the flag bit is the reference's comparison. Every index (i, j) of the array lies in
  the block of the point at (i / 1024, j / 1024), so the blocks cover the array and it ends holding G everywhere.
-/
import proofs.«149683_j3891240370725_2_alg».proof.Proof.Gen.KernelIdeal.Frame
import proofs.«149683_j3891240370725_2_alg».proof.Proof.Gen.ReferenceIdeal.Read
import proofs.«149683_j3891240370725_2_alg».proof.Proof.BlockPieces
import proofs.«149683_j3891240370725_2_alg».proof.Proof.BlockValue
import proofs.«149683_j3891240370725_2_alg».proof.Proof.HostArrays
import proofs.«149683_j3891240370725_2_alg».proof.Proof.Spec
import Idealize.ShloMosaic.Lib.Pipeline.Value
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- No index map of the call reads the prefetched flag, so the side condition on the table's contents is empty. -/
theorem ok : Ok m := by show True; trivial

/-- The index maps, decided once over the 4 x 4 grid: with (r, s) the output's block index at a point, the x-side
    windows are at block row r, the y-side windows at block s, and every other coordinate is 0. -/
theorem idx_facts : ∀ t : Fin grid0.N,
    cc0_transform_0 (grid0.coords t) (0 : Fin 2) = cc0_transform_6 (grid0.coords t) (0 : Fin 2) ∧ cc0_transform_0 (grid0.coords t) (1 : Fin 2) = 0
    ∧ cc0_transform_1 (grid0.coords t) (0 : Fin 2) = cc0_transform_6 (grid0.coords t) (1 : Fin 2) ∧ cc0_transform_1 (grid0.coords t) (1 : Fin 2) = 0
    ∧ cc0_transform_2 (grid0.coords t) (0 : Fin 2) = cc0_transform_6 (grid0.coords t) (0 : Fin 2) ∧ cc0_transform_2 (grid0.coords t) (1 : Fin 2) = 0
    ∧ cc0_transform_3 (grid0.coords t) (0 : Fin 2) = 0 ∧ cc0_transform_3 (grid0.coords t) (1 : Fin 2) = cc0_transform_6 (grid0.coords t) (1 : Fin 2)
    ∧ cc0_transform_4 (grid0.coords t) (0 : Fin 2) = cc0_transform_6 (grid0.coords t) (0 : Fin 2) ∧ cc0_transform_4 (grid0.coords t) (1 : Fin 2) = 0
    ∧ cc0_transform_5 (grid0.coords t) (0 : Fin 2) = 0 ∧ cc0_transform_5 (grid0.coords t) (1 : Fin 2) = cc0_transform_6 (grid0.coords t) (1 : Fin 2)
    ∧ cc0_transform_6 (grid0.coords t) (0 : Fin 2) ≤ 3 ∧ cc0_transform_6 (grid0.coords t) (1 : Fin 2) ≤ 3 := by decide +kernel

/-- Every block of the 4 x 4 tiling of the output is some point's. -/
theorem idx_onto : ∀ (q0 q1 : Fin 4), ∃ t : Fin grid0.N, cc0_transform_6 (grid0.coords t) = ![q0.val, q1.val] := by decide +kernel

/-! ## The six input blocks at a point, read where one output entry reads them

At a point whose output block index is (r, s), entry (p, q) of the output block is entry (i, j) = (r·1024 + p, s·1024 + q)
of the result array; the x-side blocks are read at row p (array row i), the y-side blocks at q (array row j). -/

/-- A block of the scaled x rows at (p, k) is row i of the array. -/
theorem blockX_apply (c : Dev nD) (t : Fin (cfgM m (ok m)).N) (p : Fin 1024) (k : Fin 128) (i : Fin 4096)
    (hi : i.val = cc0_transform_6 (grid0.coords t) (0 : Fin 2) * 1024 + p.val) :
    iblk m (ok m) c 0 t (ix2 p k) = (Cert.ReferenceIdeal.Read.val_main_v6 (F := Ideal) (m ((c : Thread nD τ).loc main_arg0)) (m ((c : Thread nD τ).loc main_arg2)) (m ((c : Thread nD τ).loc main_arg4))) (ix2 i k) := by
  obtain ⟨e0, e1, -⟩ := idx_facts t
  show (V m c main_v16 : S4096x128.Idx → Ideal .bf16) ((((cfgM m (ok m)).win 0).blk t).view.emb (ix2 p k)) = _
  have e : (((cfgM m (ok m)).win 0).blk t).view.emb (ix2 p k) = ix2 i k := by
    funext a; apply Fin.ext
    match a with
    | ⟨0, _⟩ => show cc0_transform_0 (grid0.coords t) (0 : Fin 2) * 1024 + 1 * p.val = i.val; omega
    | ⟨1, _⟩ => show cc0_transform_0 (grid0.coords t) (1 : Fin 2) * 128 + 1 * k.val = k.val; omega
  rw [e]
  exact HostArrays.rowsX_apply m c i k

/-- A block of the scaled y rows at (q, k) is row j of the array. -/
theorem blockY_apply (c : Dev nD) (t : Fin (cfgM m (ok m)).N) (q : Fin 1024) (k : Fin 128) (j : Fin 4096)
    (hj : j.val = cc0_transform_6 (grid0.coords t) (1 : Fin 2) * 1024 + q.val) :
    iblk m (ok m) c 1 t (ix2 q k) = (Cert.ReferenceIdeal.Read.val_main_v8 (F := Ideal) (m ((c : Thread nD τ).loc main_arg1)) (m ((c : Thread nD τ).loc main_arg3)) (m ((c : Thread nD τ).loc main_arg4))) (ix2 j k) := by
  obtain ⟨-, -, e0, e1, -⟩ := idx_facts t
  show (V m c main_v17 : S4096x128.Idx → Ideal .bf16) ((((cfgM m (ok m)).win 1).blk t).view.emb (ix2 q k)) = _
  have e : (((cfgM m (ok m)).win 1).blk t).view.emb (ix2 q k) = ix2 j k := by
    funext a; apply Fin.ext
    match a with
    | ⟨0, _⟩ => show cc0_transform_1 (grid0.coords t) (0 : Fin 2) * 1024 + 1 * q.val = j.val; omega
    | ⟨1, _⟩ => show cc0_transform_1 (grid0.coords t) (1 : Fin 2) * 128 + 1 * k.val = k.val; omega
  rw [e]
  exact HostArrays.rowsY_apply m c j k

/-- The block of x's row sums of squares at p is entry i. -/
theorem blockSX_apply (c : Dev nD) (t : Fin (cfgM m (ok m)).N) (p : Fin 1024) (i : Fin 4096)
    (hi : i.val = cc0_transform_6 (grid0.coords t) (0 : Fin 2) * 1024 + p.val) :
    iblk m (ok m) c 2 t (ix2 p (0 : Fin 1)) = (Cert.ReferenceIdeal.Read.val_main_v10 (F := Ideal) (m ((c : Thread nD τ).loc main_arg0)) (m ((c : Thread nD τ).loc main_arg2)) (m ((c : Thread nD τ).loc main_arg4))) (ix1 i) := by
  obtain ⟨-, -, -, -, e0, e1, -⟩ := idx_facts t
  show (V m c main_v11 : S4096x1.Idx → Ideal .f32) ((((cfgM m (ok m)).win 2).blk t).view.emb (ix2 p (0 : Fin 1))) = _
  have e : (((cfgM m (ok m)).win 2).blk t).view.emb (ix2 p (0 : Fin 1)) = ix2 i (0 : Fin 1) := by
    funext a; apply Fin.ext
    match a with
    | ⟨0, _⟩ => show cc0_transform_2 (grid0.coords t) (0 : Fin 2) * 1024 + 1 * p.val = i.val; omega
    | ⟨1, _⟩ => show cc0_transform_2 (grid0.coords t) (1 : Fin 2) * 1 + 1 * 0 = 0; omega
  rw [e]
  exact HostArrays.sumX_apply m c i

/-- The block of y's row sums of squares (laid as a row) at q is entry j. -/
theorem blockSY_apply (c : Dev nD) (t : Fin (cfgM m (ok m)).N) (q : Fin 1024) (j : Fin 4096)
    (hj : j.val = cc0_transform_6 (grid0.coords t) (1 : Fin 2) * 1024 + q.val) :
    iblk m (ok m) c 3 t (ix2 (0 : Fin 1) q) = (Cert.ReferenceIdeal.Read.val_main_v12 (F := Ideal) (m ((c : Thread nD τ).loc main_arg1)) (m ((c : Thread nD τ).loc main_arg3)) (m ((c : Thread nD τ).loc main_arg4))) (ix1 j) := by
  obtain ⟨-, -, -, -, -, -, e0, e1, -⟩ := idx_facts t
  show (V m c main_v15 : S1x4096.Idx → Ideal .f32) ((((cfgM m (ok m)).win 3).blk t).view.emb (ix2 (0 : Fin 1) q)) = _
  have e : (((cfgM m (ok m)).win 3).blk t).view.emb (ix2 (0 : Fin 1) q) = ix2 (0 : Fin 1) j := by
    funext a; apply Fin.ext
    match a with
    | ⟨0, _⟩ => show cc0_transform_3 (grid0.coords t) (0 : Fin 2) * 1 + 1 * 0 = 0; omega
    | ⟨1, _⟩ => show cc0_transform_3 (grid0.coords t) (1 : Fin 2) * 1024 + 1 * q.val = j.val; omega
  rw [e]
  exact HostArrays.sumY_apply m c j

/-- The block of halved cutoffs (a column) at p is half the clipped cutoff i. -/
theorem blockHC_apply (c : Dev nD) (t : Fin (cfgM m (ok m)).N) (p : Fin 1024) (i : Fin 4096)
    (hi : i.val = cc0_transform_6 (grid0.coords t) (0 : Fin 2) * 1024 + p.val) :
    iblk m (ok m) c 4 t (ix2 p (0 : Fin 1)) = (Cert.ReferenceIdeal.Read.val_main_v28 (F := Ideal) (m ((c : Thread nD τ).loc main_arg5))) (ix2 i (0 : Fin 1)) * Ideal.ofBits .f32 0x3F000000#32 := by
  obtain ⟨-, -, -, -, -, -, -, -, e0, e1, -⟩ := idx_facts t
  show (V m c main_v20 : S4096x1.Idx → Ideal .f32) ((((cfgM m (ok m)).win 4).blk t).view.emb (ix2 p (0 : Fin 1))) = _
  have e : (((cfgM m (ok m)).win 4).blk t).view.emb (ix2 p (0 : Fin 1)) = ix2 i (0 : Fin 1) := by
    funext a; apply Fin.ext
    match a with
    | ⟨0, _⟩ => show cc0_transform_4 (grid0.coords t) (0 : Fin 2) * 1024 + 1 * p.val = i.val; omega
    | ⟨1, _⟩ => show cc0_transform_4 (grid0.coords t) (1 : Fin 2) * 1 + 1 * 0 = 0; omega
  rw [e]
  exact HostArrays.halfCol_apply m c i

/-- The block of halved cutoffs (a row) at q is half the clipped cutoff j. -/
theorem blockHR_apply (c : Dev nD) (t : Fin (cfgM m (ok m)).N) (q : Fin 1024) (j : Fin 4096)
    (hj : j.val = cc0_transform_6 (grid0.coords t) (1 : Fin 2) * 1024 + q.val) :
    iblk m (ok m) c 5 t (ix2 (0 : Fin 1) q) = (Cert.ReferenceIdeal.Read.val_main_v28 (F := Ideal) (m ((c : Thread nD τ).loc main_arg5))) (ix2 j (0 : Fin 1)) * Ideal.ofBits .f32 0x3F000000#32 := by
  obtain ⟨-, -, -, -, -, -, -, -, -, -, e0, e1, -⟩ := idx_facts t
  show (V m c main_v21 : S1x4096.Idx → Ideal .f32) ((((cfgM m (ok m)).win 5).blk t).view.emb (ix2 (0 : Fin 1) q)) = _
  have e : (((cfgM m (ok m)).win 5).blk t).view.emb (ix2 (0 : Fin 1) q) = ix2 (0 : Fin 1) j := by
    funext a; apply Fin.ext
    match a with
    | ⟨0, _⟩ => show cc0_transform_5 (grid0.coords t) (0 : Fin 2) * 1 + 1 * 0 = 0; omega
    | ⟨1, _⟩ => show cc0_transform_5 (grid0.coords t) (1 : Fin 2) * 1024 + 1 * q.val = j.val; omega
  rw [e]
  exact HostArrays.halfRow_apply m c j

/-- An index of a one-element array is its only index. -/
theorem one_idx (a b : S1.Idx) : a = b := by
  funext d; apply Fin.ext
  match d with
  | ⟨0, _⟩ =>
    have ha : (a 0).val < 1 := (a 0).isLt
    have hb : (b 0).val < 1 := (b 0).isLt
    show (a 0).val = (b 0).val
    omega

/-- The flag bit the body reads off the prefetched word is the reference's comparison "mean cutoff > 0". -/
theorem flag_eq (c : Dev nD) : kernelRun0_A.sl.v35 c (tbl m 0) = (Cert.ReferenceIdeal.Read.val_main_v48 (F := Ideal) (m ((c : Thread nD τ).loc main_arg5)) ValueIdx.ix0) := by
  obtain rfl : c = 0 := Subsingleton.elim _ _
  unfold kernelRun0_A.sl.v35 kernelRun0_A.sl.r
  refine Eq.trans (congrArg (fun w => Scalar.cmpi CmpIPredicate.sgt w 0#32) ?_) (HostArrays.flag_bit m 0)
  simp only [View.readAt_eq_ld, Memref.view_whole, View.read_whole]
  show (V m 0 main_v26 : S1.Idx → BitVec 32) _ = (V m 0 main_v26 : S1.Idx → BitVec 32) _
  exact congrArg _ (one_idx _ _)

/-! ## What a point leaves, and what the array ends holding -/

/-- THE RESULT ARRAY: G of the scaled rows, their sums of squares, the clipped cutoffs and the flag — each the
    reference's own intermediate value of the kernel's arguments. -/
def result (c : Dev nD) : S4096x4096.Idx → EReal :=
  Cert.CauchySpec.G (Cert.ReferenceIdeal.Read.val_main_v6 (F := Ideal) (m ((c : Thread nD τ).loc main_arg0)) (m ((c : Thread nD τ).loc main_arg2)) (m ((c : Thread nD τ).loc main_arg4))) (Cert.ReferenceIdeal.Read.val_main_v8 (F := Ideal) (m ((c : Thread nD τ).loc main_arg1)) (m ((c : Thread nD τ).loc main_arg3)) (m ((c : Thread nD τ).loc main_arg4))) (Cert.ReferenceIdeal.Read.val_main_v10 (F := Ideal) (m ((c : Thread nD τ).loc main_arg0)) (m ((c : Thread nD τ).loc main_arg2)) (m ((c : Thread nD τ).loc main_arg4))) (Cert.ReferenceIdeal.Read.val_main_v12 (F := Ideal) (m ((c : Thread nD τ).loc main_arg1)) (m ((c : Thread nD τ).loc main_arg3)) (m ((c : Thread nD τ).loc main_arg4))) (Cert.ReferenceIdeal.Read.val_main_v28 (F := Ideal) (m ((c : Thread nD τ).loc main_arg5))) (Cert.ReferenceIdeal.Read.val_main_v48 (F := Ideal) (m ((c : Thread nD τ).loc main_arg5)) ValueIdx.ix0)

/-- Entry (p, q) of what point t leaves in the output block is the result array's entry (i, j). -/
theorem out_apply (c : Dev nD) (t : Fin (cfgM m (ok m)).N) (p q : Fin 1024) (i j : Fin 4096)
    (hi : i.val = cc0_transform_6 (grid0.coords t) (0 : Fin 2) * 1024 + p.val) (hj : j.val = cc0_transform_6 (grid0.coords t) (1 : Fin 2) * 1024 + q.val) :
    outsAt0 m (ok m) c t (ix2 p q) = result m c (ix2 i j) := by
  unfold outsAt0
  refine (congrFun (BlockPieces.out_eq c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t)
    (iblk m (ok m) c 0 t) (iblk m (ok m) c 1 t) (iblk m (ok m) c 2 t) (iblk m (ok m) c 3 t) (iblk m (ok m) c 4 t) (iblk m (ok m) c 5 t) (tbl m 0)) (ix2 p q)).trans ?_
  refine (BlockValue.block_eq_spec (iblk m (ok m) c 0 t) (iblk m (ok m) c 1 t) (iblk m (ok m) c 2 t) (iblk m (ok m) c 3 t) (iblk m (ok m) c 4 t) (iblk m (ok m) c 5 t) (kernelRun0_A.sl.v35 c (tbl m 0))
    (Cert.ReferenceIdeal.Read.val_main_v6 (F := Ideal) (m ((c : Thread nD τ).loc main_arg0)) (m ((c : Thread nD τ).loc main_arg2)) (m ((c : Thread nD τ).loc main_arg4))) (Cert.ReferenceIdeal.Read.val_main_v8 (F := Ideal) (m ((c : Thread nD τ).loc main_arg1)) (m ((c : Thread nD τ).loc main_arg3)) (m ((c : Thread nD τ).loc main_arg4))) (Cert.ReferenceIdeal.Read.val_main_v10 (F := Ideal) (m ((c : Thread nD τ).loc main_arg0)) (m ((c : Thread nD τ).loc main_arg2)) (m ((c : Thread nD τ).loc main_arg4))) (Cert.ReferenceIdeal.Read.val_main_v12 (F := Ideal) (m ((c : Thread nD τ).loc main_arg1)) (m ((c : Thread nD τ).loc main_arg3)) (m ((c : Thread nD τ).loc main_arg4))) (Cert.ReferenceIdeal.Read.val_main_v28 (F := Ideal) (m ((c : Thread nD τ).loc main_arg5))) i j p q
    (fun k => blockX_apply m c t p k i hi) (fun k => blockY_apply m c t q k j hj)
    (blockSX_apply m c t p i hi) (blockSY_apply m c t q j hj) (blockHC_apply m c t p i hi) (blockHR_apply m c t q j hj)).trans ?_
  unfold result
  rw [flag_eq]

set_option maxHeartbeats 4000000 in
/-- WHAT POINT t WRITES BACK is block t of the result array. -/
theorem flushed_eq (c : Dev nD) (t : Fin (cfgM m (ok m)).N) :
    (dats m (ok m) 0 c).flushed 6 t = ((((cfgM m (ok m)).win 6)).blk t).view.read (Elt Ideal) (result m c) := by
  show ((cfgM m (ok m)).win 6).cut ((cfgM m (ok m)).grid.coords t) ((dats m (ok m) 0 c).after 6 t) = _
  rw [after0_6]
  refine funext fun (y : S1024x1024.Idx) => ?_
  obtain ⟨-, -, -, -, -, -, -, -, -, -, -, -, b0, b1⟩ := idx_facts t
  have hy0 : (y 0).val < 1024 := (y 0).isLt
  have hy1 : (y 1).val < 1024 := (y 1).isLt
  have ey : ((cfgM m (ok m)).win 6).xinj ((cfgM m (ok m)).grid.coords t) y = ix2 (⟨(y 0).val, hy0⟩ : Fin 1024) (⟨(y 1).val, hy1⟩ : Fin 1024) :=
    funext fun a => Fin.ext (by match a with | ⟨0, _⟩ => rfl | ⟨1, _⟩ => rfl)
  have e : (((cfgM m (ok m)).win 6).blk t).view.emb y
      = ix2 (⟨cc0_transform_6 (grid0.coords t) (0 : Fin 2) * 1024 + (y 0).val, by omega⟩ : Fin 4096) (⟨cc0_transform_6 (grid0.coords t) (1 : Fin 2) * 1024 + (y 1).val, by omega⟩ : Fin 4096) := by
    funext a; apply Fin.ext
    match a with
    | ⟨0, _⟩ => show cc0_transform_6 (grid0.coords t) (0 : Fin 2) * 1024 + 1 * (y 0).val = cc0_transform_6 (grid0.coords t) (0 : Fin 2) * 1024 + (y 0).val; omega
    | ⟨1, _⟩ => show cc0_transform_6 (grid0.coords t) (1 : Fin 2) * 1024 + 1 * (y 1).val = cc0_transform_6 (grid0.coords t) (1 : Fin 2) * 1024 + (y 1).val; omega
  show outsAt0 m (ok m) c t (((cfgM m (ok m)).win 6).xinj ((cfgM m (ok m)).grid.coords t) y) = result m c ((((cfgM m (ok m)).win 6).blk t).view.emb y)
  rw [ey, e]
  exact out_apply m c t _ _ _ _ rfl rfl

/-- An index of the array is in point t's block iff each coordinate is in the block's range on its axis. -/
theorem mem_blk (t : Fin (cfgM m (ok m)).N) (i : S4096x4096.Idx) :
    i ∈ (((cfgM m (ok m)).win 6).blk t).view.set ↔ ∀ a : Fin 2, cc0_transform_6 (grid0.coords t) a * S1024x1024.size a ≤ (i a).val ∧ (i a).val < cc0_transform_6 (grid0.coords t) a * S1024x1024.size a + S1024x1024.size a := by
  show i ∈ ((View.whole main_v27).slice (((cfgM m (ok m)).win 6).rect t)).set ↔ _
  exact (Eq.to_iff (congrArg (fun S => i ∈ S) (View.set_slice_whole main_v27 (((cfgM m (ok m)).win 6).rect t)))).trans Rect.mem_set_unit

/-- The 4 x 4 blocks tile the array: every index is in the block of the point at (row / 1024, column / 1024). -/
theorem cover (i : S4096x4096.Idx) : ∃ t : Fin (cfgM m (ok m)).N, ((cfgM m (ok m)).win 6).flush t = true ∧ i ∈ (((cfgM m (ok m)).win 6).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : cc0_transform_6 (grid0.coords t) (0 : Fin 2) = (i 0).val / 1024 := congrFun ht 0
  have q1 : cc0_transform_6 (grid0.coords t) (1 : Fin 2) = (i 1).val / 1024 := congrFun ht 1
  refine ⟨t, flush0_6 (adm m (ok m)) t, ?_⟩
  rw [mem_blk]
  intro a
  match a with
  | ⟨0, _⟩ => show cc0_transform_6 (grid0.coords t) (0 : Fin 2) * 1024 ≤ (i 0).val ∧ (i 0).val < cc0_transform_6 (grid0.coords t) (0 : Fin 2) * 1024 + 1024; omega
  | ⟨1, _⟩ => show cc0_transform_6 (grid0.coords t) (1 : Fin 2) * 1024 ≤ (i 1).val ∧ (i 1).val < cc0_transform_6 (grid0.coords t) (1 : Fin 2) * 1024 + 1024; omega

/-- THE ARRAY after the run is the result array. -/
theorem final (c : Dev nD) : (dats m (ok m) 0 c).arrAt 6 (cfgM m (ok m)).N = result m c :=
  (dats m (ok m) 0 c).arrAt_eq_of_cover 6 (result m c) (fun t _ => flushed_eq m c t) (cover m)

/-- THE KERNEL'S RUN with its result named: every weakly fair execution terminates with the output array at the
    result array and the arguments unchanged. -/
theorem run : θ_run defs (onTc (τ := τ) (main (F := Ideal))) ⟨m, fun _ => 0, ρ⟩ fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ (ok m))

end Cert.KernelIdeal.KernelValue
end
-- ==== Proof.RefValue.lean ====
/-
  The reference program's result, entry by entry, is the specification's function of the reference's own
  intermediate arrays: the scaled rows, their sums of squares, the clipped cutoff column and the flag.
  Three parts. The kernel value: one over one plus the clamped squared distance, the distance read through the
  transposition and the two broadcasts. The mean of two clipped cutoffs: half of a sum of two nonnegative numbers is the
  sum of the halves. The gate: a logistic value of an argument clipped into [-1, 1] is above the small threshold it is
  clamped by, so the clamp is the identity.
-/
import proofs.«149683_j3891240370725_2_alg».proof.Proof.Gen.ReferenceIdeal.Read
import proofs.«149683_j3891240370725_2_alg».proof.Proof.Spec
import proofs.«149683_j3891240370725_2_alg».proof.Proof.Laws
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ### The composed index functions at an entry `(i, j)` -/

theorem idx_rowSum (i j : Fin 4096) : idx_main_v15 (idx_main_v17 (ix2 i j)) = ix1 i :=
  funext fun a => match a with | ⟨0, _⟩ => rfl

theorem idx_colSum (i j : Fin 4096) : idx_main_v16 (idx_main_v18 (ix2 i j)) = ix1 j :=
  funext fun a => match a with | ⟨0, _⟩ => rfl

theorem idx_lhs (i j : Fin 4096) (k : Fin 128) : lidx_main_v14 (ix2 i j) k = ix2 i k :=
  funext fun a => match a with | ⟨0, _⟩ => rfl | ⟨1, _⟩ => rfl

theorem idx_rhs (i j : Fin 4096) (k : Fin 128) : idx_main_v13 (ridx_main_v14 (ix2 i j) k) = ix2 j k :=
  funext fun a => match a with | ⟨0, _⟩ => rfl | ⟨1, _⟩ => rfl

theorem idx_cutRow (i j : Fin 4096) : idx_main_v30 (ix2 i j) = ix2 i (0 : Fin 1) :=
  funext fun a => match a with | ⟨0, _⟩ => rfl | ⟨1, _⟩ => rfl

theorem idx_cutCol (i j : Fin 4096) : idx_main_v29 (idx_main_v31 (ix2 i j)) = ix2 j (0 : Fin 1) :=
  funext fun a => match a with | ⟨0, _⟩ => rfl | ⟨1, _⟩ => rfl

/-! ### The kernel value -/

/-- Entry `(i, j)` of the quotient stage is the Cauchy kernel of the clamped squared distance between scaled row `i`
    and scaled row `j`: the product stage reads the second operand through the transposition, the two sums of squares
    through their broadcasts. -/
theorem dist_apply (x0 x1 : (⟨S4096x128, .f32⟩ : BufTy).Contents (Elt Ideal)) (x2 x3 : (⟨S4096x16, .f32⟩ : BufTy).Contents (Elt Ideal)) (x4 : (⟨S16x128, .f32⟩ : BufTy).Contents (Elt Ideal)) (i j : Fin 4096) :
    val_main_v27 (F := Ideal) x0 x1 x2 x3 x4 (ix2 i j)
      = Cert.CauchySpec.res (val_main_v6 (F := Ideal) x0 x2 x4) (val_main_v8 (F := Ideal) x1 x3 x4) (val_main_v10 (F := Ideal) x0 x2 x4) (val_main_v12 (F := Ideal) x1 x3 x4) i j := by
  rw [val_main_v27_apply, val_main_v26_apply, val_main_cst_8_apply, val_main_v25_apply, val_main_v24_apply,
    val_main_cst_7_apply, val_main_v23_apply, val_main_call3_v1_apply, val_main_call3_v0_apply, val_main_cst_6_apply,
    val_main_v22_apply, val_main_v19_apply, val_main_v17_apply, val_main_v15_apply, val_main_v18_apply,
    val_main_v16_apply, val_main_v21_apply, val_main_v20_apply, val_main_cst_5_apply, val_main_v14_apply,
    idx_rowSum, idx_colSum]
  simp only [val_main_v13_apply, idx_lhs, idx_rhs, Ideal.hostDivf_def, Ideal.addf_def, Ideal.subf_def, Ideal.mulf_def,
    Ideal.maximumf_def, Ideal.ofBits_def]
  rfl

/-! ### The clipped cutoff and the mean of two -/

/-- The clipped cutoff is nonnegative: it lies between two nonnegative bounds. -/
theorem cutoff_nonneg (x5 : (⟨S4096x1, .f32⟩ : BufTy).Contents (Elt Ideal)) (q : S4096x1.Idx) : (0 : EReal) ≤ val_main_v28 (F := Ideal) x5 q := by
  rw [val_main_v28_apply, val_main_call4_v4_apply, val_main_call4_v3_apply, val_main_cst_10_apply,
    val_main_call4_v2_apply, val_main_call4_v1_apply, val_main_call4_v0_apply, val_main_cst_9_apply]
  simp only [Ideal.minimumf_def, Ideal.maximumf_def, Ideal.ofBits_def]
  exact Cert.CauchyLaws.clip_nonneg _

/-- Entry `(i, j)` of the mean stage: half of the sum of the two clipped cutoffs is the sum of their halves. -/
theorem mean_apply (x5 : (⟨S4096x1, .f32⟩ : BufTy).Contents (Elt Ideal)) (i j : Fin 4096) :
    val_main_v34 (F := Ideal) x5 (ix2 i j)
      = val_main_v28 (F := Ideal) x5 (ix2 i (0 : Fin 1)) * Ideal.ofBits .f32 0x3F000000#32
        + val_main_v28 (F := Ideal) x5 (ix2 j (0 : Fin 1)) * Ideal.ofBits .f32 0x3F000000#32 := by
  rw [val_main_v34_apply, val_main_v32_apply, val_main_v30_apply, val_main_v31_apply, val_main_v29_apply,
    val_main_v33_apply, val_main_cst_11_apply, idx_cutRow, idx_cutCol]
  simp only [Ideal.mulf_def, Ideal.addf_def, Ideal.ofBits_def]
  exact Cert.CauchyLaws.half_sum _ _ _ (cutoff_nonneg x5 _) (cutoff_nonneg x5 _)

/-! ### The gate -/

/-- Entry `(i, j)` of the clamped gate stage is the logistic value of the gate's argument: the argument is clipped into
    `[-1, 1]`, where the logistic function is above the threshold. -/
theorem gate_apply (x0 x1 : (⟨S4096x128, .f32⟩ : BufTy).Contents (Elt Ideal)) (x2 x3 : (⟨S4096x16, .f32⟩ : BufTy).Contents (Elt Ideal)) (x4 : (⟨S16x128, .f32⟩ : BufTy).Contents (Elt Ideal)) (x5 : (⟨S4096x1, .f32⟩ : BufTy).Contents (Elt Ideal)) (i j : Fin 4096) :
    val_main_v45 (F := Ideal) x0 x1 x2 x3 x4 x5 (ix2 i j)
      = Ideal.logistic (Cert.CauchySpec.gateArg (val_main_v6 (F := Ideal) x0 x2 x4) (val_main_v8 (F := Ideal) x1 x3 x4) (val_main_v10 (F := Ideal) x0 x2 x4) (val_main_v12 (F := Ideal) x1 x3 x4) (val_main_v28 (F := Ideal) x5) i j) := by
  rw [val_main_v45_apply, val_main_call6_v1_apply, val_main_call6_v0_apply, val_main_cst_17_apply,
    val_main_v44_apply, val_main_v43_apply, val_main_cst_16_apply, val_main_v42_apply, val_main_v41_apply,
    val_main_cst_15_apply, val_main_v40_apply, val_main_v39_apply, val_main_v38_apply, val_main_v37_apply,
    val_main_cst_14_apply, val_main_v36_apply, val_main_call5_v4_apply, val_main_call5_v3_apply,
    val_main_cst_13_apply, val_main_call5_v2_apply, val_main_call5_v1_apply, val_main_call5_v0_apply,
    val_main_cst_12_apply, val_main_v35_apply, dist_apply, mean_apply]
  simp only [Ideal.hostDivf_def, Ideal.addf_def, Ideal.subf_def, Ideal.mulf_def, Ideal.maximumf_def,
    Ideal.minimumf_def, Ideal.hostNegf_def, Ideal.negf_def, Ideal.hostUnary_exp_def, Ideal.ofBits_def]
  exact Cert.CauchyLaws.sigmoid_floor_clip _

/-! ### The result -/

/-- The reference's result stage is the specification's function of the reference's six intermediate stages. -/
theorem ref_eq (x0 x1 : (⟨S4096x128, .f32⟩ : BufTy).Contents (Elt Ideal)) (x2 x3 : (⟨S4096x16, .f32⟩ : BufTy).Contents (Elt Ideal)) (x4 : (⟨S16x128, .f32⟩ : BufTy).Contents (Elt Ideal)) (x5 : (⟨S4096x1, .f32⟩ : BufTy).Contents (Elt Ideal)) :
    val_main_v50 (F := Ideal) x0 x1 x2 x3 x4 x5
      = Cert.CauchySpec.G (val_main_v6 (F := Ideal) x0 x2 x4) (val_main_v8 (F := Ideal) x1 x3 x4) (val_main_v10 (F := Ideal) x0 x2 x4) (val_main_v12 (F := Ideal) x1 x3 x4) (val_main_v28 (F := Ideal) x5) (val_main_v48 (F := Ideal) x5 ValueIdx.ix0) := by
  funext idx
  obtain ⟨i, j, rfl⟩ : ∃ i j, idx = ix2 i j := ⟨idx 0, idx 1, eq_ix2 idx⟩
  rw [Cert.CauchySpec.G_apply]
  unfold val_main_v50
  rw [select_apply, broadcastInDim_apply _ bcast_S_S4096x4096 (val_main_v48 (F := Ideal) x5) (ix2 i j) ix0 (fun a => a.elim0),
    val_main_v49_apply, dist_apply, gate_apply]
  rfl

end Cert.ReferenceIdeal.RefValue

end
-- ==== Proof.lean ====
/-
  The kernel computes the gated Cauchy kernel between the scaled rows of x and of y in sixteen 1024 x 1024 tiles; the
  reference computes the same 4096 x 4096 array whole. On the extended reals both are ONE function G of six shared
  intermediate values — the scaled rows a = x / √(clip (sample_x · clip scale)) and b likewise of y, their row sums of
  squares s and t, the clipped cutoff column γ, and the bit "mean cutoff > 0":
      res (i, j) = 1 / (1 + max ε (s i + t j - 2 · Σ_k a (i, k) · b (j, k))),
      G (i, j)   = res · logistic (clamp₋₁¹ (res - (γ i · ½ + γ j · ½)))  if the bit is set, else res.
  The two programs spell the shared prologue identically (a rounding of the scaled rows to bf16 and the host product's
  precision are the identity on the extended reals), so the intermediate values are the same terms of the arguments.
  They differ in three places, each an identity on the extended reals:
    * the reference halves the sum γ i + γ j, the kernel sums the halves: equal because a clipped cutoff is
      nonnegative (distributivity over a sum of nonnegative extended reals);
    * the reference clamps its logistic value below by ε and multiplies the clamped argument by 1; a logistic value of an
      argument in [-1, 1] is at least 1/(1 + e) > 1/4 > ε, so the clamp changes nothing;
    * the kernel carries the bit through a 32-bit word and tests it signed-positive: the round trip is the bit.
  The matrix product inside a tile contracts rows against rows, the reference's contracts rows against the columns of a
  transpose: the same sum over k. The sixteen tiles cover the array, tile (r, s) holding entries (r·1024 + p, s·1024 + q).
  No index map reads the prefetched flag, so the pipeline's side condition on the table is empty; the frames are the
  generated ones, the reference's the generated run with its result dropped. The idealization rewrote nothing.
-/
import proofs.«149683_j3891240370725_2_alg».proof.Defs
import proofs.«149683_j3891240370725_2_alg».proof.Proof.Gen.Kernel
import proofs.«149683_j3891240370725_2_alg».proof.Proof.Gen.Kernel.Skeleton
import proofs.«149683_j3891240370725_2_alg».proof.Proof.Gen.Kernel.Launch
import proofs.«149683_j3891240370725_2_alg».proof.Proof.Gen.Kernel.Points
import proofs.«149683_j3891240370725_2_alg».proof.Proof.Gen.Kernel.Frame
import proofs.«149683_j3891240370725_2_alg».proof.Proof.Gen.KernelIdeal
import proofs.«149683_j3891240370725_2_alg».proof.Proof.Gen.KernelIdeal.Skeleton
import proofs.«149683_j3891240370725_2_alg».proof.Proof.Gen.KernelIdeal.Launch
import proofs.«149683_j3891240370725_2_alg».proof.Proof.Gen.KernelIdeal.Points
import proofs.«149683_j3891240370725_2_alg».proof.Proof.Gen.KernelIdeal.Frame
import proofs.«149683_j3891240370725_2_alg».proof.Proof.Gen.ReferenceIdeal
import proofs.«149683_j3891240370725_2_alg».proof.Proof.Gen.ReferenceIdeal.Run
import proofs.«149683_j3891240370725_2_alg».proof.Proof.Gen.ReferenceIdeal.Read
import proofs.«149683_j3891240370725_2_alg».proof.Proof.Gen.Pre_finite_inputs
import proofs.«149683_j3891240370725_2_alg».proof.Proof.KernelValue
import proofs.«149683_j3891240370725_2_alg».proof.Proof.RefValue
import Idealize.ShloMosaic.Adequacy
import Idealize.ShloMosaic.Init

noncomputable section

namespace Cert.Proof

open Idealize.ShloMosaic Idealize.SL.Sem

/-- The word-level kernel's frame: the side condition on the prefetched table is empty. -/
theorem frame_kernel : Cert.frame_Kernel := fun m ρ _ => Cert.Kernel.Gen.frame m ρ (by show True; trivial)

/-- The idealized kernel's frame, likewise. -/
theorem frame_kernelIdeal : Cert.frame_KernelIdeal := fun m ρ _ => Cert.KernelIdeal.Gen.frame m ρ (Cert.KernelIdeal.KernelValue.ok m)

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array G of the shared intermediate values: the kernel's by its sixteen tiles, the
    reference's by its own operations read entry by entry, from arguments that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v50_eq, Cert.ReferenceIdeal.RefValue.ref_eq,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
